-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Bits.Guards.lean ====
/-
  The three guards of the matmul body, over the grid (4, 4, 8) whose innermost coordinate k walks the eight
  blocks of the contracted axis: the body overwrites the output block when k = 0, adds to it when k ≠ 0, and
  adds the bias row when k = 7. The point number t has k = t mod 8, so each guard is a condition on t mod 8.
  Because one of the first two guards always holds, the output block is written at every point.
-/
import proofs.«174358_j46926812676154_2_alg».proof.Proof.Gen.Kernel.Skeleton
import proofs.«174358_j46926812676154_2_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The overwrite guard holds exactly at the points with k = 0. -/
theorem overwrite_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulate guard holds exactly at the points with k ≠ 0. -/
theorem accumulate_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- The bias guard holds exactly at the points with k = 7. -/
theorem bias_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- At every grid coordinate the body stores into the output block: k = 0 or k ≠ 0. -/
theorem out_live (i : grid0.Coords) : cfg0.idle 3 i = false := by
  have h : ∀ k : Fin 8,
      (!(Scalar.cmpi .ne (Scalar.extui (Scalar.cmpi .eq (BitVec.ofNat 32 k.val) 0#32)) 0#32 == 1#1)
        && !(Scalar.cmpi .ne (Scalar.extui (Scalar.cmpi .ne (BitVec.ofNat 32 k.val) 0#32)) 0#32 == 1#1)
        && !(Scalar.cmpi .ne (Scalar.extui (Scalar.cmpi .eq (BitVec.ofNat 32 k.val) 7#32)) 0#32 == 1#1)) = false := by
    decide
  exact h (i 2)

/-- The staging memref each window is on at point t, as the pipeline hands it to the body, and its wholeness. -/
abbrev xs (t : Fin cfg0.N) : Memref sig .tc .vmem S2048x512 .bf16 := win0_0.stage (cfg0.slots t 0)
abbrev xs_whole (t : Fin cfg0.N) : (xs t).IsWhole := hstage0_0 ((cfg0.slots t 0).cast nbuf0_0)
abbrev ws (t : Fin cfg0.N) : Memref sig .tc .vmem S1024x512 .bf16 := win0_1.stage (cfg0.slots t 1)
abbrev ws_whole (t : Fin cfg0.N) : (ws t).IsWhole := hstage0_1 ((cfg0.slots t 1).cast nbuf0_1)
abbrev bs (t : Fin cfg0.N) : Memref sig .tc .vmem S1x1024 .f32 := win0_2.stage (cfg0.slots t 2)
abbrev bs_whole (t : Fin cfg0.N) : (bs t).IsWhole := hstage0_2 ((cfg0.slots t 2).cast nbuf0_2)
abbrev os (t : Fin cfg0.N) : Memref sig .tc .vmem S2048x1024 .f32 := win0_3.stage (cfg0.slots t 3)
abbrev os_whole (t : Fin cfg0.N) : (os t).IsWhole := hstage0_3 ((cfg0.slots t 3).cast nbuf0_3)

/-- One staging buffer of the output window, through which a block's contents are stated. -/
abbrev OV : View sig .tc .vmem S2048x1024 .f32 := (Memref.whole cc0_stg3_0 : Memref sig .tc .vmem S2048x1024 .f32).view

end Cert.Kernel.Body

end
-- ==== Proof.Bits.StepFirst.lean ====
/-
  The body at a point with k = 0. It loads the x block and the w block, forms their product contracted over
  the block's 512 columns, and overwrites the output block with it; the other two guards fail, so nothing is
  added. The triple below runs the body on whole staging buffers: the inputs at their contents, the output at
  anything. It returns the inputs as found and the output buffer with the stores' pieces written; the pieces
  are read off the run.
-/
import proofs.«174358_j46926812676154_2_alg».proof.Proof.Bits.Guards

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The body where only the overwrite guard holds (k = 0). -/
noncomputable def stepFirst (c : Dev nD) (i : grid0.Coords)
    (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : k0_cond1 i = 1#1) (g2 : ¬ k0_cond2 i = 1#1) (g3 : ¬ k0_cond3 i = 1#1)
    (x : Vec F S2048x512 .bf16) (w : Vec F S1024x512 .bf16) (b : Vec F S1x1024 .f32) :
    { L : List (View.Piece (Elt F) S2048x1024 .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ d, owns (c : Thread nD τ) a6 fullShare d)
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f L)) -∗ K ⟨⟩))
          ⊢ wp frame (wpE (defs₀ (F := F)) Variants.none c none) E (cc0__kernel i a3 h3 a4 h4 a5 h5 a6 h6) K } := by
  refine ⟨?_, fun E K => ?run⟩
  case run =>
    simp only [cc0__kernel_eq_skeleton]; unfold cc0__kernel_skel
    unfold owns
    iintro ⟨⟨%f3, %e3, H3⟩, ⟨%f4, %e4, H4⟩, ⟨%f5, %e5, H5⟩, ⟨%d, %f6, -, H6⟩, Hk⟩
    obtain rfl := h3.eq_unread e3; obtain rfl := h4.eq_unread e4; obtain rfl := h5.eq_unread e5
    sl_exec (disch := first | exact g1 | exact g2 | exact g3)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.Kernel.Body

end
-- ==== Proof.Bits.StepMiddle.lean ====
/-
  The body at a point with 0 < k < 7. It loads the x block and the w block, forms their product contracted
  over the block's 512 columns, and adds it to what the output block already holds. The triple runs the body
  on whole staging buffers, the output's at its running contents, and returns the output buffer with the
  store's pieces written.
-/
import proofs.«174358_j46926812676154_2_alg».proof.Proof.Bits.Guards

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The body where only the accumulate guard holds (0 < k < 7). -/
noncomputable def stepMiddle (c : Dev nD) (i : grid0.Coords)
    (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : ¬ k0_cond3 i = 1#1)
    (x : Vec F S2048x512 .bf16) (w : Vec F S1024x512 .bf16) (b : Vec F S1x1024 .f32) (acc : Vec F S2048x1024 .f32) :
    { L : List (View.Piece (Elt F) S2048x1024 .f32) //
      ∀ (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare acc
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f L)) -∗ K ⟨⟩))
          ⊢ wp frame (wpE (defs₀ (F := F)) Variants.none c none) E (cc0__kernel i a3 h3 a4 h4 a5 h5 a6 h6) K } := by
  refine ⟨?_, fun E K => ?run⟩
  case run =>
    simp only [cc0__kernel_eq_skeleton]; unfold cc0__kernel_skel
    unfold owns
    iintro ⟨⟨%f3, %e3, H3⟩, ⟨%f4, %e4, H4⟩, ⟨%f5, %e5, H5⟩, ⟨%f6, %e6, H6⟩, Hk⟩
    obtain rfl := h3.eq_unread e3; obtain rfl := h4.eq_unread e4; obtain rfl := h5.eq_unread e5; obtain rfl := h6.eq_unread e6
    sl_exec (disch := first | exact g1 | exact g2 | exact g3)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.Kernel.Body

end
-- ==== Proof.Bits.StepLast.lean ====
/-
  The body at a point with k = 7. It adds the last partial product to the output block and then adds the
  bias row, repeated down the block's 2048 rows. The triple runs the body on whole staging buffers, the
  output's at its running contents, and returns the output buffer with the two stores' pieces written.
-/
import proofs.«174358_j46926812676154_2_alg».proof.Proof.Bits.Guards

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The body where the accumulate and bias guards hold (k = 7). -/
noncomputable def stepLast (c : Dev nD) (i : grid0.Coords)
    (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : k0_cond3 i = 1#1)
    (x : Vec F S2048x512 .bf16) (w : Vec F S1024x512 .bf16) (b : Vec F S1x1024 .f32) (acc : Vec F S2048x1024 .f32) :
    { L : List (View.Piece (Elt F) S2048x1024 .f32) //
      ∀ (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare acc
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f L)) -∗ K ⟨⟩))
          ⊢ wp frame (wpE (defs₀ (F := F)) Variants.none c none) E (cc0__kernel i a3 h3 a4 h4 a5 h5 a6 h6) K } := by
  refine ⟨?_, fun E K => ?run⟩
  case run =>
    simp only [cc0__kernel_eq_skeleton]; unfold cc0__kernel_skel
    unfold owns
    iintro ⟨⟨%f3, %e3, H3⟩, ⟨%f4, %e4, H4⟩, ⟨%f5, %e5, H5⟩, ⟨%f6, %e6, H6⟩, Hk⟩
    obtain rfl := h3.eq_unread e3; obtain rfl := h4.eq_unread e4; obtain rfl := h5.eq_unread e5; obtain rfl := h6.eq_unread e6
    sl_exec (disch := first | exact g1 | exact g2 | exact g3)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.Kernel.Body

end
-- ==== Proof.Bits.Carry.lean ====
/-
  The output block across the contracted axis.

  For a fixed output block (i, j) the grid visits k = 0, …, 7 in order, at the consecutive points
  t = 32 i + 8 j + k, and the block's staging buffer is written back only after k = 7. So what the buffer
  holds after point t is defined by recursion on t: at k = 0 the body's product of the point's x and w
  blocks; at 0 < k < 7 what the point before left plus the point's product; at k = 7 that sum plus the bias
  row. Each of the three is read off the body's run at that case. With these contents as the proof data the
  body runs at every point from what the point before left.
-/
import proofs.«174358_j46926812676154_2_alg».proof.Proof.Bits.StepFirst
import proofs.«174358_j46926812676154_2_alg».proof.Proof.Bits.StepMiddle
import proofs.«174358_j46926812676154_2_alg».proof.Proof.Bits.StepLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## What each case leaves in the output block -/

/-- At k = 0 the one store covers the output block. -/
theorem coverFirst (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : k0_cond1 i = 1#1) (g2 : ¬ k0_cond2 i = 1#1) (g3 : ¬ k0_cond3 i = 1#1) (x : Vec F S2048x512 .bf16) (w : Vec F S1024x512 .bf16) (b : Vec F S1x1024 .f32) (y : S2048x1024.Idx) :
    ∃ pc ∈ (stepFirst c i a3 h3 a4 h4 a5 h5 a6 h6 g1 g2 g3 x w b).1, y ∈ pc.1.set :=
  View.cover_of_tiledL (stepFirst c i a3 h3 a4 h4 a5 h5 a6 h6 g1 g2 g3 x w b).1 S2048x1024.size (by sl_kernel_rfl) y

/-- The output block after the body at k = 0. -/
def outFirst (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : k0_cond1 i = 1#1) (g2 : ¬ k0_cond2 i = 1#1) (g3 : ¬ k0_cond3 i = 1#1) (x : Vec F S2048x512 .bf16) (w : Vec F S1024x512 .bf16) (b : Vec F S1x1024 .f32) : Vec F S2048x1024 .f32 :=
  OV.read (Elt F) (OV.writes (Elt F) OV.junk (stepFirst c i a3 h3 a4 h4 a5 h5 a6 h6 g1 g2 g3 x w b).1)

/-- At 0 < k < 7 the one store covers the output block. -/
theorem coverMiddle (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : ¬ k0_cond3 i = 1#1) (x : Vec F S2048x512 .bf16) (w : Vec F S1024x512 .bf16) (b : Vec F S1x1024 .f32) (acc : Vec F S2048x1024 .f32) (y : S2048x1024.Idx) :
    ∃ pc ∈ (stepMiddle c i a3 h3 a4 h4 a5 h5 a6 h6 g1 g2 g3 x w b acc).1, y ∈ pc.1.set :=
  View.cover_of_tiledL (stepMiddle c i a3 h3 a4 h4 a5 h5 a6 h6 g1 g2 g3 x w b acc).1 S2048x1024.size (by sl_kernel_rfl) y

/-- The output block after the body at 0 < k < 7, from what it held before. -/
def outMiddle (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : ¬ k0_cond3 i = 1#1) (x : Vec F S2048x512 .bf16) (w : Vec F S1024x512 .bf16) (b : Vec F S1x1024 .f32) (acc : Vec F S2048x1024 .f32) : Vec F S2048x1024 .f32 :=
  OV.read (Elt F) (OV.writes (Elt F) OV.junk (stepMiddle c i a3 h3 a4 h4 a5 h5 a6 h6 g1 g2 g3 x w b acc).1)

/-- At k = 7 the two stores cover the output block. -/
theorem coverLast (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : k0_cond3 i = 1#1) (x : Vec F S2048x512 .bf16) (w : Vec F S1024x512 .bf16) (b : Vec F S1x1024 .f32) (acc : Vec F S2048x1024 .f32) (y : S2048x1024.Idx) :
    ∃ pc ∈ (stepLast c i a3 h3 a4 h4 a5 h5 a6 h6 g1 g2 g3 x w b acc).1, y ∈ pc.1.set :=
  View.cover_of_tiledL (stepLast c i a3 h3 a4 h4 a5 h5 a6 h6 g1 g2 g3 x w b acc).1 S2048x1024.size (by sl_kernel_rfl) y

/-- The output block after the body at k = 7, from what it held before. -/
def outLast (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : k0_cond3 i = 1#1) (x : Vec F S2048x512 .bf16) (w : Vec F S1024x512 .bf16) (b : Vec F S1x1024 .f32) (acc : Vec F S2048x1024 .f32) : Vec F S2048x1024 .f32 :=
  OV.read (Elt F) (OV.writes (Elt F) OV.junk (stepLast c i a3 h3 a4 h4 a5 h5 a6 h6 g1 g2 g3 x w b acc).1)

/-! ## Which guards hold at a point, from t mod 8 -/

theorem first_g2 (t : Fin cfg0.N) (h0 : t.val % 8 = 0) : ¬ k0_cond2 (grid0.coords t) = 1#1 :=
  fun h => (accumulate_iff t).mp h h0
theorem first_g3 (t : Fin cfg0.N) (h0 : t.val % 8 = 0) : ¬ k0_cond3 (grid0.coords t) = 1#1 :=
  fun h => by have := (bias_iff t).mp h; omega
theorem later_g1 (t : Fin cfg0.N) (h0 : ¬ t.val % 8 = 0) : ¬ k0_cond1 (grid0.coords t) = 1#1 :=
  fun h => h0 ((overwrite_iff t).mp h)
theorem mid_g3 (t : Fin cfg0.N) (h7 : ¬ t.val % 8 = 7) : ¬ k0_cond3 (grid0.coords t) = 1#1 :=
  fun h => h7 ((bias_iff t).mp h)
theorem last_ne (t : Fin cfg0.N) (h7 : t.val % 8 = 7) : ¬ t.val % 8 = 0 := by omega

/-! ## The three cases at a grid point -/

/-- The body's result at a point with k = 0, on the point's staging buffers and input blocks. -/
def atFirst (c : Dev nD) (t : Fin cfg0.N) (h0 : t.val % 8 = 0) : Vec F S2048x1024 .f32 :=
  outFirst c (grid0.coords t) (xs t) (xs_whole t) (ws t) (ws_whole t) (bs t) (bs_whole t) (os t) (os_whole t)
    ((overwrite_iff t).mpr h0) (first_g2 t h0) (first_g3 t h0)
    (iblk m c 0 t) (iblk m c 1 t) (iblk m c 2 t)

/-- The body's result at a point with 0 < k < 7, from what the point before left. -/
def atMiddle (c : Dev nD) (t : Fin cfg0.N) (h0 : ¬ t.val % 8 = 0) (h7 : ¬ t.val % 8 = 7) (acc : Vec F S2048x1024 .f32) :
    Vec F S2048x1024 .f32 :=
  outMiddle c (grid0.coords t) (xs t) (xs_whole t) (ws t) (ws_whole t) (bs t) (bs_whole t) (os t) (os_whole t)
    (later_g1 t h0) ((accumulate_iff t).mpr h0) (mid_g3 t h7)
    (iblk m c 0 t) (iblk m c 1 t) (iblk m c 2 t) acc

/-- The body's result at a point with k = 7, from what the point before left. -/
def atLast (c : Dev nD) (t : Fin cfg0.N) (h7 : t.val % 8 = 7) (acc : Vec F S2048x1024 .f32) : Vec F S2048x1024 .f32 :=
  outLast c (grid0.coords t) (xs t) (xs_whole t) (ws t) (ws_whole t) (bs t) (bs_whole t) (os t) (os_whole t)
    (later_g1 t (last_ne t h7)) ((accumulate_iff t).mpr (last_ne t h7)) ((bias_iff t).mpr h7)
    (iblk m c 0 t) (iblk m c 1 t) (iblk m c 2 t) acc

/-! ## The output block point by point -/

/-- What the output's staging buffer holds after the body at point n. -/
def carried (c : Dev nD) : (n : ℕ) → n < cfg0.N → Vec F S2048x1024 .f32
  | 0, hn => atFirst m c ⟨0, hn⟩ (Nat.zero_mod _)
  | n + 1, hn =>
    if h0 : (n + 1) % 8 = 0 then atFirst m c ⟨n + 1, hn⟩ h0
    else if h7 : (n + 1) % 8 = 7 then atLast m c ⟨n + 1, hn⟩ h7 (carried c n (Nat.lt_of_succ_lt hn))
    else atMiddle m c ⟨n + 1, hn⟩ h0 h7 (carried c n (Nat.lt_of_succ_lt hn))

theorem carried_first (c : Dev nD) (t : Fin cfg0.N) (h0 : t.val % 8 = 0) :
    carried m c t.val t.isLt = atFirst m c t h0 := by
  obtain ⟨n, hn⟩ := t
  cases n with
  | zero => exact rfl
  | succ n => exact (dif_pos h0).trans rfl

theorem carried_middle (c : Dev nD) (t : Fin cfg0.N) (h0 : ¬ t.val % 8 = 0) (h7 : ¬ t.val % 8 = 7) :
    carried m c t.val t.isLt
      = atMiddle m c t h0 h7 (carried m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h7).trans rfl)

theorem carried_last (c : Dev nD) (t : Fin cfg0.N) (h7 : t.val % 8 = 7) :
    carried m c t.val t.isLt
      = atLast m c t h7 (carried m c (t.val - 1) (Nat.lt_of_le_of_lt (Nat.sub_le _ _) t.isLt)) := by
  obtain ⟨n, hn⟩ := t
  cases n with
  | zero => exact (by exfalso; (try dsimp only at h7); omega)
  | succ n =>
    have h0 : ¬ (n + 1) % 8 = 0 := by (try dsimp only at h7); omega
    exact (dif_neg h0).trans ((dif_pos h7).trans rfl)

/-! ## The proof data -/

/-- On core c: the arrays as the region finds them; after the body at point t each input's buffer at its block
    and the output's at the carried contents; nothing else kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) : (dats m 0 c).after 3 t = carried m c t.val t.isLt := by dsimp only [dats]

/-- Each input's staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-- At a point with k ≠ 0 the output's staging buffer holds what the point before left: the point before has
    k ≠ 7, so the buffer was not written back between. -/
theorem before_o (c : Dev nD) (t : Fin cfg0.N) (h0 : ¬ t.val % 8 = 0) (d) :
    (dats m 0 c).before 3 t d = carried m c (t.val - 1) (Nat.lt_of_le_of_lt (Nat.sub_le _ _) t.isLt) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    out_live (fun _ _ => rfl)]
  dsimp only [dats]

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (xs t) fullShare ((dats m 0 c).before 0 t d))
    ∗ (∃ d, owns (c : Thread nD τ) (ws t) fullShare ((dats m 0 c).before 1 t d))
    ∗ (∃ d, owns (c : Thread nD τ) (bs t) fullShare ((dats m 0 c).before 2 t d))
    ∗ (∃ d, owns (c : Thread nD τ) (os t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (xs t) fullShare ((dats m 0 c).after 0 t)
    ∗ owns (c : Thread nD τ) (ws t) fullShare ((dats m 0 c).after 1 t)
    ∗ owns (c : Thread nD τ) (bs t) fullShare ((dats m 0 c).after 2 t)
    ∗ owns (c : Thread nD τ) (os t) fullShare ((dats m 0 c).after 3 t))

set_option maxHeartbeats 1600000 in
/-- The body at any point: the inputs' buffers hold their blocks; t mod 8 says which case the point is in; at
    k ≠ 0 the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  have hN : t.val < 128 := lt_of_lt_of_eq t.isLt (show cfg0.N = 128 from N_0)
  by_cases h0 : t.val % 8 = 0
  · rw [carried_first m c t h0]
    unfold atFirst outFirst
    iintro ⟨HΦ, Ho, ⟨%d0, H0⟩, ⟨%d1, H1⟩, ⟨%d2, H2⟩, ⟨%d3, H3⟩⟩
    iapply ((stepFirst c (grid0.coords t) (xs t) (xs_whole t) (ws t) (ws_whole t) (bs t) (bs_whole t) (os t) (os_whole t) ((overwrite_iff t).mpr h0) (first_g2 t h0) (first_g3 t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _ _)
  · simp only [before_o m c t h0]
    by_cases h7 : t.val % 8 = 7
    · rw [carried_last m c t h7]
      unfold atLast outLast
      iintro ⟨HΦ, Ho, ⟨%d0, H0⟩, ⟨%d1, H1⟩, ⟨%d2, H2⟩, ⟨%d3, H3⟩⟩
      iapply ((stepLast c (grid0.coords t) (xs t) (xs_whole t) (ws t) (ws_whole t) (bs t) (bs_whole t) (os t) (os_whole t) (later_g1 t (last_ne t h7)) ((accumulate_iff t).mpr (last_ne t h7)) ((bias_iff t).mpr h7) (iblk m c 0 t) (iblk m c 1 t) (iblk m c 2 t)
        (carried m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      iintro ⟨H0, H1, H2, ⟨%e, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _)
    · rw [carried_middle m c t h0 h7]
      unfold atMiddle outMiddle
      iintro ⟨HΦ, Ho, ⟨%d0, H0⟩, ⟨%d1, H1⟩, ⟨%d2, H2⟩, ⟨%d3, H3⟩⟩
      iapply ((stepMiddle c (grid0.coords t) (xs t) (xs_whole t) (ws t) (ws_whole t) (bs t) (bs_whole t) (os t) (os_whole t) (later_g1 t h0) ((accumulate_iff t).mpr h0) (mid_g3 t h7) (iblk m c 0 t) (iblk m c 1 t) (iblk m c 2 t)
        (carried m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      iintro ⟨H0, H1, H2, ⟨%e, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverMiddle c _ _ _ _ _ _ _ _ _ _ _ _ _ _ _ _)

end Cert.Kernel.Body

end
-- ==== Proof.Bits.Frame.lean ====
/-
  The frame of the program: with the output block's contents carried point by point as the proof data, the
  body obligation holds at every grid point (the output block is written at every point, so it is never handed
  back untouched), the launch runs to the end, and the three argument arrays are unchanged.
-/
import proofs.«174358_j46926812676154_2_alg».proof.Proof.Bits.Carry

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-- The body obligation, at every point. -/
theorem body_obligation (c : Dev nD) : BodyObligation (dats (F := F) m 0 c) (defs₀ (F := F)) Variants.none () Set.univ := fun t => by
  rw [bigSep_W0, bigSep_W0]
  have e : idle0 3 (grid0.coords t) = false := out_live _
  simp only [e]
  exact sound_body m c t

/-! ## The run and the frame -/

set_option backward.isDefEq.respectTransparency.types false in
/-- Every weakly fair execution of the program terminates; every array of the launch ends at what the proof
    data says and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without a fault and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.Ideal.Guards.lean ====
/-
  The three guards of the matmul body, over the grid (4, 4, 8) whose innermost coordinate k walks the eight
  blocks of the contracted axis: the body overwrites the output block when k = 0, adds to it when k ≠ 0, and
  adds the bias row when k = 7. The point number t has k = t mod 8, so each guard is a condition on t mod 8.
  Because one of the first two guards always holds, the output block is written at every point.
-/
import proofs.«174358_j46926812676154_2_alg».proof.Proof.Gen.KernelIdeal.Skeleton
import proofs.«174358_j46926812676154_2_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The overwrite guard holds exactly at the points with k = 0. -/
theorem overwrite_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulate guard holds exactly at the points with k ≠ 0. -/
theorem accumulate_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- The bias guard holds exactly at the points with k = 7. -/
theorem bias_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- At every grid coordinate the body stores into the output block: k = 0 or k ≠ 0. -/
theorem out_live (i : grid0.Coords) : cfg0.idle 3 i = false := by
  have h : ∀ k : Fin 8,
      (!(Scalar.cmpi .ne (Scalar.extui (Scalar.cmpi .eq (BitVec.ofNat 32 k.val) 0#32)) 0#32 == 1#1)
        && !(Scalar.cmpi .ne (Scalar.extui (Scalar.cmpi .ne (BitVec.ofNat 32 k.val) 0#32)) 0#32 == 1#1)
        && !(Scalar.cmpi .ne (Scalar.extui (Scalar.cmpi .eq (BitVec.ofNat 32 k.val) 7#32)) 0#32 == 1#1)) = false := by
    decide
  exact h (i 2)

/-- The staging memref each window is on at point t, as the pipeline hands it to the body, and its wholeness. -/
abbrev xs (t : Fin cfg0.N) : Memref sig .tc .vmem S2048x512 .bf16 := win0_0.stage (cfg0.slots t 0)
abbrev xs_whole (t : Fin cfg0.N) : (xs t).IsWhole := hstage0_0 ((cfg0.slots t 0).cast nbuf0_0)
abbrev ws (t : Fin cfg0.N) : Memref sig .tc .vmem S1024x512 .bf16 := win0_1.stage (cfg0.slots t 1)
abbrev ws_whole (t : Fin cfg0.N) : (ws t).IsWhole := hstage0_1 ((cfg0.slots t 1).cast nbuf0_1)
abbrev bs (t : Fin cfg0.N) : Memref sig .tc .vmem S1x1024 .f32 := win0_2.stage (cfg0.slots t 2)
abbrev bs_whole (t : Fin cfg0.N) : (bs t).IsWhole := hstage0_2 ((cfg0.slots t 2).cast nbuf0_2)
abbrev os (t : Fin cfg0.N) : Memref sig .tc .vmem S2048x1024 .f32 := win0_3.stage (cfg0.slots t 3)
abbrev os_whole (t : Fin cfg0.N) : (os t).IsWhole := hstage0_3 ((cfg0.slots t 3).cast nbuf0_3)

/-- One staging buffer of the output window, through which a block's contents are stated. -/
abbrev OV : View sig .tc .vmem S2048x1024 .f32 := (Memref.whole cc0_stg3_0 : Memref sig .tc .vmem S2048x1024 .f32).view

end Cert.KernelIdeal.Body

end
-- ==== Proof.Ideal.StepFirst.lean ====
/-
  The body at a point with k = 0. It loads the x block and the w block, forms their product contracted over
  the block's 512 columns, and overwrites the output block with it; the other two guards fail, so nothing is
  added. The triple below runs the body on whole staging buffers: the inputs at their contents, the output at
  anything. It returns the inputs as found and the output buffer with the stores' pieces written; the pieces
  are read off the run.
-/
import proofs.«174358_j46926812676154_2_alg».proof.Proof.Ideal.Guards

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The body where only the overwrite guard holds (k = 0). -/
noncomputable def stepFirst (c : Dev nD) (i : grid0.Coords)
    (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : k0_cond1 i = 1#1) (g2 : ¬ k0_cond2 i = 1#1) (g3 : ¬ k0_cond3 i = 1#1)
    (x : Vec F S2048x512 .bf16) (w : Vec F S1024x512 .bf16) (b : Vec F S1x1024 .f32) :
    { L : List (View.Piece (Elt F) S2048x1024 .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ d, owns (c : Thread nD τ) a6 fullShare d)
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f L)) -∗ K ⟨⟩))
          ⊢ wp frame (wpE (defs₀ (F := F)) Variants.none c none) E (cc0__kernel i a3 h3 a4 h4 a5 h5 a6 h6) K } := by
  refine ⟨?_, fun E K => ?run⟩
  case run =>
    simp only [cc0__kernel_eq_skeleton]; unfold cc0__kernel_skel
    unfold owns
    iintro ⟨⟨%f3, %e3, H3⟩, ⟨%f4, %e4, H4⟩, ⟨%f5, %e5, H5⟩, ⟨%d, %f6, -, H6⟩, Hk⟩
    obtain rfl := h3.eq_unread e3; obtain rfl := h4.eq_unread e4; obtain rfl := h5.eq_unread e5
    sl_exec (disch := first | exact g1 | exact g2 | exact g3)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.KernelIdeal.Body

end
-- ==== Proof.Ideal.StepMiddle.lean ====
/-
  The body at a point with 0 < k < 7. It loads the x block and the w block, forms their product contracted
  over the block's 512 columns, and adds it to what the output block already holds. The triple runs the body
  on whole staging buffers, the output's at its running contents, and returns the output buffer with the
  store's pieces written.
-/
import proofs.«174358_j46926812676154_2_alg».proof.Proof.Ideal.Guards

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The body where only the accumulate guard holds (0 < k < 7). -/
noncomputable def stepMiddle (c : Dev nD) (i : grid0.Coords)
    (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : ¬ k0_cond3 i = 1#1)
    (x : Vec F S2048x512 .bf16) (w : Vec F S1024x512 .bf16) (b : Vec F S1x1024 .f32) (acc : Vec F S2048x1024 .f32) :
    { L : List (View.Piece (Elt F) S2048x1024 .f32) //
      ∀ (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare acc
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f L)) -∗ K ⟨⟩))
          ⊢ wp frame (wpE (defs₀ (F := F)) Variants.none c none) E (cc0__kernel i a3 h3 a4 h4 a5 h5 a6 h6) K } := by
  refine ⟨?_, fun E K => ?run⟩
  case run =>
    simp only [cc0__kernel_eq_skeleton]; unfold cc0__kernel_skel
    unfold owns
    iintro ⟨⟨%f3, %e3, H3⟩, ⟨%f4, %e4, H4⟩, ⟨%f5, %e5, H5⟩, ⟨%f6, %e6, H6⟩, Hk⟩
    obtain rfl := h3.eq_unread e3; obtain rfl := h4.eq_unread e4; obtain rfl := h5.eq_unread e5; obtain rfl := h6.eq_unread e6
    sl_exec (disch := first | exact g1 | exact g2 | exact g3)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.KernelIdeal.Body

end
-- ==== Proof.Ideal.StepLast.lean ====
/-
  The body at a point with k = 7. It adds the last partial product to the output block and then adds the
  bias row, repeated down the block's 2048 rows. The triple runs the body on whole staging buffers, the
  output's at its running contents, and returns the output buffer with the two stores' pieces written.
-/
import proofs.«174358_j46926812676154_2_alg».proof.Proof.Ideal.Guards

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The body where the accumulate and bias guards hold (k = 7). -/
noncomputable def stepLast (c : Dev nD) (i : grid0.Coords)
    (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : k0_cond3 i = 1#1)
    (x : Vec F S2048x512 .bf16) (w : Vec F S1024x512 .bf16) (b : Vec F S1x1024 .f32) (acc : Vec F S2048x1024 .f32) :
    { L : List (View.Piece (Elt F) S2048x1024 .f32) //
      ∀ (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare acc
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f L)) -∗ K ⟨⟩))
          ⊢ wp frame (wpE (defs₀ (F := F)) Variants.none c none) E (cc0__kernel i a3 h3 a4 h4 a5 h5 a6 h6) K } := by
  refine ⟨?_, fun E K => ?run⟩
  case run =>
    simp only [cc0__kernel_eq_skeleton]; unfold cc0__kernel_skel
    unfold owns
    iintro ⟨⟨%f3, %e3, H3⟩, ⟨%f4, %e4, H4⟩, ⟨%f5, %e5, H5⟩, ⟨%f6, %e6, H6⟩, Hk⟩
    obtain rfl := h3.eq_unread e3; obtain rfl := h4.eq_unread e4; obtain rfl := h5.eq_unread e5; obtain rfl := h6.eq_unread e6
    sl_exec (disch := first | exact g1 | exact g2 | exact g3)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.KernelIdeal.Body

end
-- ==== Proof.Ideal.Carry.lean ====
/-
  The output block across the contracted axis.

  For a fixed output block (i, j) the grid visits k = 0, …, 7 in order, at the consecutive points
  t = 32 i + 8 j + k, and the block's staging buffer is written back only after k = 7. So what the buffer
  holds after point t is defined by recursion on t: at k = 0 the body's product of the point's x and w
  blocks; at 0 < k < 7 what the point before left plus the point's product; at k = 7 that sum plus the bias
  row. Each of the three is read off the body's run at that case. With these contents as the proof data the
  body runs at every point from what the point before left.
-/
import proofs.«174358_j46926812676154_2_alg».proof.Proof.Ideal.StepFirst
import proofs.«174358_j46926812676154_2_alg».proof.Proof.Ideal.StepMiddle
import proofs.«174358_j46926812676154_2_alg».proof.Proof.Ideal.StepLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## What each case leaves in the output block -/

/-- At k = 0 the one store covers the output block. -/
theorem coverFirst (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : k0_cond1 i = 1#1) (g2 : ¬ k0_cond2 i = 1#1) (g3 : ¬ k0_cond3 i = 1#1) (x : Vec F S2048x512 .bf16) (w : Vec F S1024x512 .bf16) (b : Vec F S1x1024 .f32) (y : S2048x1024.Idx) :
    ∃ pc ∈ (stepFirst c i a3 h3 a4 h4 a5 h5 a6 h6 g1 g2 g3 x w b).1, y ∈ pc.1.set :=
  View.cover_of_tiledL (stepFirst c i a3 h3 a4 h4 a5 h5 a6 h6 g1 g2 g3 x w b).1 S2048x1024.size (by sl_kernel_rfl) y

/-- The output block after the body at k = 0. -/
def outFirst (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : k0_cond1 i = 1#1) (g2 : ¬ k0_cond2 i = 1#1) (g3 : ¬ k0_cond3 i = 1#1) (x : Vec F S2048x512 .bf16) (w : Vec F S1024x512 .bf16) (b : Vec F S1x1024 .f32) : Vec F S2048x1024 .f32 :=
  OV.read (Elt F) (OV.writes (Elt F) OV.junk (stepFirst c i a3 h3 a4 h4 a5 h5 a6 h6 g1 g2 g3 x w b).1)

/-- At 0 < k < 7 the one store covers the output block. -/
theorem coverMiddle (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : ¬ k0_cond3 i = 1#1) (x : Vec F S2048x512 .bf16) (w : Vec F S1024x512 .bf16) (b : Vec F S1x1024 .f32) (acc : Vec F S2048x1024 .f32) (y : S2048x1024.Idx) :
    ∃ pc ∈ (stepMiddle c i a3 h3 a4 h4 a5 h5 a6 h6 g1 g2 g3 x w b acc).1, y ∈ pc.1.set :=
  View.cover_of_tiledL (stepMiddle c i a3 h3 a4 h4 a5 h5 a6 h6 g1 g2 g3 x w b acc).1 S2048x1024.size (by sl_kernel_rfl) y

/-- The output block after the body at 0 < k < 7, from what it held before. -/
def outMiddle (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : ¬ k0_cond3 i = 1#1) (x : Vec F S2048x512 .bf16) (w : Vec F S1024x512 .bf16) (b : Vec F S1x1024 .f32) (acc : Vec F S2048x1024 .f32) : Vec F S2048x1024 .f32 :=
  OV.read (Elt F) (OV.writes (Elt F) OV.junk (stepMiddle c i a3 h3 a4 h4 a5 h5 a6 h6 g1 g2 g3 x w b acc).1)

/-- At k = 7 the two stores cover the output block. -/
theorem coverLast (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : k0_cond3 i = 1#1) (x : Vec F S2048x512 .bf16) (w : Vec F S1024x512 .bf16) (b : Vec F S1x1024 .f32) (acc : Vec F S2048x1024 .f32) (y : S2048x1024.Idx) :
    ∃ pc ∈ (stepLast c i a3 h3 a4 h4 a5 h5 a6 h6 g1 g2 g3 x w b acc).1, y ∈ pc.1.set :=
  View.cover_of_tiledL (stepLast c i a3 h3 a4 h4 a5 h5 a6 h6 g1 g2 g3 x w b acc).1 S2048x1024.size (by sl_kernel_rfl) y

/-- The output block after the body at k = 7, from what it held before. -/
def outLast (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : k0_cond3 i = 1#1) (x : Vec F S2048x512 .bf16) (w : Vec F S1024x512 .bf16) (b : Vec F S1x1024 .f32) (acc : Vec F S2048x1024 .f32) : Vec F S2048x1024 .f32 :=
  OV.read (Elt F) (OV.writes (Elt F) OV.junk (stepLast c i a3 h3 a4 h4 a5 h5 a6 h6 g1 g2 g3 x w b acc).1)

/-! ## Which guards hold at a point, from t mod 8 -/

theorem first_g2 (t : Fin cfg0.N) (h0 : t.val % 8 = 0) : ¬ k0_cond2 (grid0.coords t) = 1#1 :=
  fun h => (accumulate_iff t).mp h h0
theorem first_g3 (t : Fin cfg0.N) (h0 : t.val % 8 = 0) : ¬ k0_cond3 (grid0.coords t) = 1#1 :=
  fun h => by have := (bias_iff t).mp h; omega
theorem later_g1 (t : Fin cfg0.N) (h0 : ¬ t.val % 8 = 0) : ¬ k0_cond1 (grid0.coords t) = 1#1 :=
  fun h => h0 ((overwrite_iff t).mp h)
theorem mid_g3 (t : Fin cfg0.N) (h7 : ¬ t.val % 8 = 7) : ¬ k0_cond3 (grid0.coords t) = 1#1 :=
  fun h => h7 ((bias_iff t).mp h)
theorem last_ne (t : Fin cfg0.N) (h7 : t.val % 8 = 7) : ¬ t.val % 8 = 0 := by omega

/-! ## The three cases at a grid point -/

/-- The body's result at a point with k = 0, on the point's staging buffers and input blocks. -/
def atFirst (c : Dev nD) (t : Fin cfg0.N) (h0 : t.val % 8 = 0) : Vec F S2048x1024 .f32 :=
  outFirst c (grid0.coords t) (xs t) (xs_whole t) (ws t) (ws_whole t) (bs t) (bs_whole t) (os t) (os_whole t)
    ((overwrite_iff t).mpr h0) (first_g2 t h0) (first_g3 t h0)
    (iblk m c 0 t) (iblk m c 1 t) (iblk m c 2 t)

/-- The body's result at a point with 0 < k < 7, from what the point before left. -/
def atMiddle (c : Dev nD) (t : Fin cfg0.N) (h0 : ¬ t.val % 8 = 0) (h7 : ¬ t.val % 8 = 7) (acc : Vec F S2048x1024 .f32) :
    Vec F S2048x1024 .f32 :=
  outMiddle c (grid0.coords t) (xs t) (xs_whole t) (ws t) (ws_whole t) (bs t) (bs_whole t) (os t) (os_whole t)
    (later_g1 t h0) ((accumulate_iff t).mpr h0) (mid_g3 t h7)
    (iblk m c 0 t) (iblk m c 1 t) (iblk m c 2 t) acc

/-- The body's result at a point with k = 7, from what the point before left. -/
def atLast (c : Dev nD) (t : Fin cfg0.N) (h7 : t.val % 8 = 7) (acc : Vec F S2048x1024 .f32) : Vec F S2048x1024 .f32 :=
  outLast c (grid0.coords t) (xs t) (xs_whole t) (ws t) (ws_whole t) (bs t) (bs_whole t) (os t) (os_whole t)
    (later_g1 t (last_ne t h7)) ((accumulate_iff t).mpr (last_ne t h7)) ((bias_iff t).mpr h7)
    (iblk m c 0 t) (iblk m c 1 t) (iblk m c 2 t) acc

/-! ## The output block point by point -/

/-- What the output's staging buffer holds after the body at point n. -/
def carried (c : Dev nD) : (n : ℕ) → n < cfg0.N → Vec F S2048x1024 .f32
  | 0, hn => atFirst m c ⟨0, hn⟩ (Nat.zero_mod _)
  | n + 1, hn =>
    if h0 : (n + 1) % 8 = 0 then atFirst m c ⟨n + 1, hn⟩ h0
    else if h7 : (n + 1) % 8 = 7 then atLast m c ⟨n + 1, hn⟩ h7 (carried c n (Nat.lt_of_succ_lt hn))
    else atMiddle m c ⟨n + 1, hn⟩ h0 h7 (carried c n (Nat.lt_of_succ_lt hn))

theorem carried_first (c : Dev nD) (t : Fin cfg0.N) (h0 : t.val % 8 = 0) :
    carried m c t.val t.isLt = atFirst m c t h0 := by
  obtain ⟨n, hn⟩ := t
  cases n with
  | zero => exact rfl
  | succ n => exact (dif_pos h0).trans rfl

theorem carried_middle (c : Dev nD) (t : Fin cfg0.N) (h0 : ¬ t.val % 8 = 0) (h7 : ¬ t.val % 8 = 7) :
    carried m c t.val t.isLt
      = atMiddle m c t h0 h7 (carried m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h7).trans rfl)

theorem carried_last (c : Dev nD) (t : Fin cfg0.N) (h7 : t.val % 8 = 7) :
    carried m c t.val t.isLt
      = atLast m c t h7 (carried m c (t.val - 1) (Nat.lt_of_le_of_lt (Nat.sub_le _ _) t.isLt)) := by
  obtain ⟨n, hn⟩ := t
  cases n with
  | zero => exact (by exfalso; (try dsimp only at h7); omega)
  | succ n =>
    have h0 : ¬ (n + 1) % 8 = 0 := by (try dsimp only at h7); omega
    exact (dif_neg h0).trans ((dif_pos h7).trans rfl)

/-! ## The proof data -/

/-- On core c: the arrays as the region finds them; after the body at point t each input's buffer at its block
    and the output's at the carried contents; nothing else kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) : (dats m 0 c).after 3 t = carried m c t.val t.isLt := by dsimp only [dats]

/-- Each input's staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-- At a point with k ≠ 0 the output's staging buffer holds what the point before left: the point before has
    k ≠ 7, so the buffer was not written back between. -/
theorem before_o (c : Dev nD) (t : Fin cfg0.N) (h0 : ¬ t.val % 8 = 0) (d) :
    (dats m 0 c).before 3 t d = carried m c (t.val - 1) (Nat.lt_of_le_of_lt (Nat.sub_le _ _) t.isLt) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    out_live (fun _ _ => rfl)]
  dsimp only [dats]

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (xs t) fullShare ((dats m 0 c).before 0 t d))
    ∗ (∃ d, owns (c : Thread nD τ) (ws t) fullShare ((dats m 0 c).before 1 t d))
    ∗ (∃ d, owns (c : Thread nD τ) (bs t) fullShare ((dats m 0 c).before 2 t d))
    ∗ (∃ d, owns (c : Thread nD τ) (os t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (xs t) fullShare ((dats m 0 c).after 0 t)
    ∗ owns (c : Thread nD τ) (ws t) fullShare ((dats m 0 c).after 1 t)
    ∗ owns (c : Thread nD τ) (bs t) fullShare ((dats m 0 c).after 2 t)
    ∗ owns (c : Thread nD τ) (os t) fullShare ((dats m 0 c).after 3 t))

set_option maxHeartbeats 1600000 in
/-- The body at any point: the inputs' buffers hold their blocks; t mod 8 says which case the point is in; at
    k ≠ 0 the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  have hN : t.val < 128 := lt_of_lt_of_eq t.isLt (show cfg0.N = 128 from N_0)
  by_cases h0 : t.val % 8 = 0
  · rw [carried_first m c t h0]
    unfold atFirst outFirst
    iintro ⟨HΦ, Ho, ⟨%d0, H0⟩, ⟨%d1, H1⟩, ⟨%d2, H2⟩, ⟨%d3, H3⟩⟩
    iapply ((stepFirst c (grid0.coords t) (xs t) (xs_whole t) (ws t) (ws_whole t) (bs t) (bs_whole t) (os t) (os_whole t) ((overwrite_iff t).mpr h0) (first_g2 t h0) (first_g3 t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _ _)
  · simp only [before_o m c t h0]
    by_cases h7 : t.val % 8 = 7
    · rw [carried_last m c t h7]
      unfold atLast outLast
      iintro ⟨HΦ, Ho, ⟨%d0, H0⟩, ⟨%d1, H1⟩, ⟨%d2, H2⟩, ⟨%d3, H3⟩⟩
      iapply ((stepLast c (grid0.coords t) (xs t) (xs_whole t) (ws t) (ws_whole t) (bs t) (bs_whole t) (os t) (os_whole t) (later_g1 t (last_ne t h7)) ((accumulate_iff t).mpr (last_ne t h7)) ((bias_iff t).mpr h7) (iblk m c 0 t) (iblk m c 1 t) (iblk m c 2 t)
        (carried m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      iintro ⟨H0, H1, H2, ⟨%e, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _)
    · rw [carried_middle m c t h0 h7]
      unfold atMiddle outMiddle
      iintro ⟨HΦ, Ho, ⟨%d0, H0⟩, ⟨%d1, H1⟩, ⟨%d2, H2⟩, ⟨%d3, H3⟩⟩
      iapply ((stepMiddle c (grid0.coords t) (xs t) (xs_whole t) (ws t) (ws_whole t) (bs t) (bs_whole t) (os t) (os_whole t) (later_g1 t h0) ((accumulate_iff t).mpr h0) (mid_g3 t h7) (iblk m c 0 t) (iblk m c 1 t) (iblk m c 2 t)
        (carried m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      iintro ⟨H0, H1, H2, ⟨%e, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverMiddle c _ _ _ _ _ _ _ _ _ _ _ _ _ _ _ _)

end Cert.KernelIdeal.Body

end
-- ==== Proof.Ideal.Frame.lean ====
/-
  The frame of the program: with the output block's contents carried point by point as the proof data, the
  body obligation holds at every grid point (the output block is written at every point, so it is never handed
  back untouched), the launch runs to the end, and the three argument arrays are unchanged.
-/
import proofs.«174358_j46926812676154_2_alg».proof.Proof.Ideal.Carry

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-- The body obligation, at every point. -/
theorem body_obligation (c : Dev nD) : BodyObligation (dats (F := F) m 0 c) (defs₀ (F := F)) Variants.none () Set.univ := fun t => by
  rw [bigSep_W0, bigSep_W0]
  have e : idle0 3 (grid0.coords t) = false := out_live _
  simp only [e]
  exact sound_body m c t

/-! ## The run and the frame -/

set_option backward.isDefEq.respectTransparency.types false in
/-- Every weakly fair execution of the program terminates; every array of the launch ends at what the proof
    data says and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without a fault and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Value.Spec.lean ====
/-
  The function both programs compute at the ideal values, and the law that joins them.

  For x of shape [8192, 4096], w of shape [4096, 4096] and b of shape [4096] the result at (r, s) is
      sum over kk < 4096 of sign(x[r, kk]) * sign(w[s, kk])   +   b[s].
  The reference forms the sum at once. The kernel forms it over eight consecutive runs of 512 columns, adding
  each run's sum to what it has so far, and adds b[s] at the end. Addition of extended reals is associative
  and commutative, so a sum over the first n + 512 columns is the sum over the first n plus the sum over the
  next 512; nothing here needs the entries to be finite.
-/
import Idealize.ShloMosaic.PureOps.Ideal
import Idealize.ShloMosaic.PureOps.Ideal.Laws
import Idealize.ShloMosaic.Lib.ValueIdx

noncomputable section

namespace Cert.SignProduct

open Idealize.ShloMosaic Idealize.ShloMosaic.ValueIdx

abbrev SX : Shape := ⟨2, ![8192, 4096]⟩
abbrev SW : Shape := ⟨2, ![4096, 4096]⟩
abbrev SB : Shape := ⟨1, ![4096]⟩

/-- Column kk's contribution to entry (r, s): the product of the two signs; nothing beyond the last column. -/
def term (x : SX.Idx → EReal) (w : SW.Idx → EReal) (r : Fin 8192) (s : Fin 4096) (kk : ℕ) : EReal :=
  if h : kk < 4096 then Ideal.sign (x (ix2 r ⟨kk, h⟩)) * Ideal.sign (w (ix2 s ⟨kk, h⟩)) else 0

/-- The sum of the first n columns' contributions. -/
def partialSum (x : SX.Idx → EReal) (w : SW.Idx → EReal) (r : Fin 8192) (s : Fin 4096) (n : ℕ) : EReal :=
  ∑ kk ∈ Finset.range n, term x w r s kk

/-- The result: all 4096 columns, plus the bias entry of the column s. -/
def G (x : SX.Idx → EReal) (w : SW.Idx → EReal) (b : SB.Idx → EReal) : SX.Idx → EReal :=
  fun i => partialSum x w (i 0) (i 1) 4096 + b (ix1 (i 1))

/-- G at the entry with row r and column s. -/
theorem G_apply (x : SX.Idx → EReal) (w : SW.Idx → EReal) (b : SB.Idx → EReal) (r : Fin 8192) (s : Fin 4096) :
    G x w b (ix2 r s) = partialSum x w r s 4096 + b (ix1 s) := rfl

/-- No columns: the empty sum. -/
theorem partialSum_zero (x : SX.Idx → EReal) (w : SW.Idx → EReal) (r : Fin 8192) (s : Fin 4096) :
    partialSum x w r s (512 * 0) = 0 := Finset.sum_range_zero _

/-- Extending the sum by the k-th run of 512 columns adds that run's sum. -/
theorem partialSum_step (x : SX.Idx → EReal) (w : SW.Idx → EReal) (r : Fin 8192) (s : Fin 4096) (k : ℕ) :
    partialSum x w r s (512 * (k + 1)) = partialSum x w r s (512 * k) + ∑ l ∈ Finset.range 512, term x w r s (512 * k + l) := by
  rw [Nat.mul_succ]
  exact Finset.sum_range_add _ _ _

/-- A run of 512 columns starting at 512 k, summed over the position inside the run. -/
theorem run_sum (x : SX.Idx → EReal) (w : SW.Idx → EReal) (r : Fin 8192) (s : Fin 4096) (k : ℕ) (hk : k < 8)
    (f : Fin 512 → EReal)
    (hf : ∀ l : Fin 512, f l = Ideal.sign (x (ix2 r ⟨512 * k + l.val, by have := l.isLt; omega⟩))
        * Ideal.sign (w (ix2 s ⟨512 * k + l.val, by have := l.isLt; omega⟩))) :
    ∑ l : Fin 512, f l = ∑ l ∈ Finset.range 512, term x w r s (512 * k + l) := by
  rw [Finset.sum_range]
  refine Finset.sum_congr rfl fun l _ => ?_
  have hl : 512 * k + l.val < 4096 := by have := l.isLt; omega
  rw [hf l]
  unfold term
  rw [dif_pos hl]

/-- All 4096 columns, summed over the column. -/
theorem partialSum_all (x : SX.Idx → EReal) (w : SW.Idx → EReal) (r : Fin 8192) (s : Fin 4096) :
    partialSum x w r s 4096 = ∑ k : Fin 4096, Ideal.sign (x (ix2 r k)) * Ideal.sign (w (ix2 s k)) := by
  unfold partialSum
  rw [Finset.sum_range]
  refine Finset.sum_congr rfl fun k _ => ?_
  unfold term
  rw [dif_pos k.isLt]

end Cert.SignProduct

end
-- ==== Proof.Value.Reference.lean ====
/-
  The reference computes G. Its result at (r, s) is the host's sum over kk of sign(x)[r, kk] times the
  transpose of sign(w) at [kk, s], which is sign(w[s, kk]), plus the bias broadcast at (r, s), which is b[s].
  Each step is the generated reading of one operation at an index; the index maps compose to (r, kk), (s, kk)
  and (s).
-/
import proofs.«174358_j46926812676154_2_alg».proof.Proof.Gen.ReferenceIdeal.Read
import proofs.«174358_j46926812676154_2_alg».proof.Proof.Value.Spec

noncomputable section

namespace Cert.SignProduct.Ref

open Cert.ReferenceIdeal Cert.ReferenceIdeal.Read Idealize.ShloMosaic Idealize.ShloMosaic.ValueIdx Cert.SignProduct

/-- The reference's last stage is G of its three arguments. -/
theorem reference_eq (x0 : (⟨S8192x4096, .f32⟩ : BufTy).Contents (Elt Ideal))
    (x1 : (⟨S4096x4096, .f32⟩ : BufTy).Contents (Elt Ideal))
    (x2 : (⟨S4096, .f32⟩ : BufTy).Contents (Elt Ideal)) :
    val_main_v6 (F := Ideal) x0 x1 x2 = G x0 x1 x2 := by
  funext i
  obtain ⟨r, s, rfl⟩ : ∃ (r : Fin 8192) (s : Fin 4096), i = ix2 r s := ⟨i 0, i 1, eq_ix2 i⟩
  have el : ∀ k : Fin 4096, lidx_main_v3 (ix2 r s) k = ix2 r k := fun k => funext fun a => Fin.ext (by
    match a with
    | ⟨0, _⟩ => rfl
    | ⟨1, _⟩ => rfl)
  have er : ∀ k : Fin 4096, idx_main_v2 (ridx_main_v3 (ix2 r s) k) = ix2 s k := fun k => funext fun a => Fin.ext (by
    match a with
    | ⟨0, _⟩ => rfl
    | ⟨1, _⟩ => rfl)
  have eb : idx_main_v4 (idx_main_v5 (ix2 r s)) = ix1 s := funext fun a => Fin.ext (by
    match a with
    | ⟨0, _⟩ => rfl)
  rw [G_apply, partialSum_all, val_main_v6_apply, val_main_v3_apply, val_main_v5_apply, val_main_v4_apply, eb]
  simp only [val_main_v2_apply, val_main_v1_apply, val_main_v0_apply, el, er, Ideal.addf_def, Ideal.hostUnary_sign_def]

end Cert.SignProduct.Ref

end
-- ==== Proof.Ideal.Pieces.lean ====
/-
  What each case of the body leaves in the output block, as a value. Every store covers the whole block through
  the rectangle at offset (0, 0), so the block ends at the last store's value; every load reads a whole staging
  buffer, so it returns that buffer's contents. At k = 0 the block ends at the product of the point's x and w
  blocks; at 0 < k < 7 at what it held plus that product; at k = 7 the block is first brought to what it held
  plus the product, read back, and then the bias row is added.
-/
import proofs.«174358_j46926812676154_2_alg».proof.Proof.Ideal.Carry
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem hz : (![0, 0] : Fin 2 → Nat) = fun _ => 0 := funext fun a => by fin_cases a <;> rfl

/-- At k = 0 the block ends at the product of the two input blocks. -/
theorem outFirst_eq (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : k0_cond1 i = 1#1) (g2 : ¬ k0_cond2 i = 1#1) (g3 : ¬ k0_cond3 i = 1#1) (x : Vec F S2048x512 .bf16) (w : Vec F S1024x512 .bf16) (b : Vec F S1x1024 .f32) :
    outFirst c i a3 h3 a4 h4 a5 h5 a6 h6 g1 g2 g3 x w b = k0_pay1 x w := by
  unfold outFirst
  rw [View.read_writes_eq_canon _ _ _ (coverFirst c i a3 h3 a4 h4 a5 h5 a6 h6 g1 g2 g3 x w b)]
  unfold stepFirst
  dsimp only
  rw [View.canon_unit_zero hz]
  simp only [View.readAt_eq_ld, h3.read_unread, h4.read_unread, View.ld_unit_zero (S := S2048x512) hz, View.ld_unit_zero (S := S1024x512) hz, View.ld_unit_zero (S := S1x1024) hz, View.ld_unit_zero (S := S2048x1024) hz]

/-- At 0 < k < 7 the block ends at what it held plus the product. -/
theorem outMiddle_eq (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : ¬ k0_cond3 i = 1#1) (x : Vec F S2048x512 .bf16) (w : Vec F S1024x512 .bf16) (b : Vec F S1x1024 .f32) (acc : Vec F S2048x1024 .f32) :
    outMiddle c i a3 h3 a4 h4 a5 h5 a6 h6 g1 g2 g3 x w b acc = k0_pay2 x w acc := by
  unfold outMiddle
  rw [View.read_writes_eq_canon _ _ _ (coverMiddle c i a3 h3 a4 h4 a5 h5 a6 h6 g1 g2 g3 x w b acc)]
  unfold stepMiddle
  dsimp only
  rw [View.canon_unit_zero hz]
  simp only [View.readAt_eq_ld, h3.read_unread, h4.read_unread, h6.read_unread, View.ld_unit_zero (S := S2048x512) hz, View.ld_unit_zero (S := S1024x512) hz, View.ld_unit_zero (S := S1x1024) hz, View.ld_unit_zero (S := S2048x1024) hz]

/-- At k = 7 the block ends at what it held plus the product, plus the bias row. -/
theorem outLast_eq (c : Dev nD) (i : grid0.Coords) (a3 : Memref sig .tc .vmem S2048x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S2048x1024 .f32) (h6 : a6.IsWhole)
    (g1 : ¬ k0_cond1 i = 1#1) (g2 : k0_cond2 i = 1#1) (g3 : k0_cond3 i = 1#1) (x : Vec F S2048x512 .bf16) (w : Vec F S1024x512 .bf16) (b : Vec F S1x1024 .f32) (acc : Vec F S2048x1024 .f32) :
    outLast c i a3 h3 a4 h4 a5 h5 a6 h6 g1 g2 g3 x w b acc = k0_pay3 (k0_pay2 x w acc) b := by
  unfold outLast
  rw [View.read_writes_eq_canon _ _ _ (coverLast c i a3 h3 a4 h4 a5 h5 a6 h6 g1 g2 g3 x w b acc)]
  unfold stepLast
  dsimp only
  sl_unfold_words
  rw [View.canon_cons_unit_zero (S := S2048x1024) hz, View.readCov_unit_zero (S := S2048x1024) _ hz]
  simp only [View.readAt_eq_ld, h3.read_unread, h4.read_unread, h5.read_unread, h6.read_unread, View.ld_unit_zero (S := S2048x512) hz, View.ld_unit_zero (S := S1024x512) hz, View.ld_unit_zero (S := S1x1024) hz, View.ld_unit_zero (S := S2048x1024) hz]

end Cert.KernelIdeal.Body

end
-- ==== Proof.Value.Payload.lean ====
/-
  The body's three stored values, read at an entry of the output block, at the ideal values.

  The matrix unit contracts the second axis of the x block [2048, 512] with the second axis of the w block
  [1024, 512] into a zero accumulator, so its result at (p, q) is the sum over l < 512 of x[p, l] * w[q, l].
  The accumulating store adds that to what the block held; the last store adds the bias row b[0, q], the same
  down every row p. A change of shape to the same shape changes nothing.
-/
import proofs.«174358_j46926812676154_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.SignProduct.Payload

open Cert.KernelIdeal Cert.KernelIdeal.Gen Idealize.ShloMosaic Idealize.ShloMosaic.ValueIdx

/-- The left operand is read at the output's row, -/
theorem lhs_row (j : S2048x1024.Idx) (k : dot_S2048x512_S1024x512_S2048x1024_1_1_0_0_n_n.contr.Idx) : (dot_S2048x512_S1024x512_S2048x1024_1_1_0_0_n_n.lhsIdx j k 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
/-- and at the contracted position; -/
theorem lhs_col (j : S2048x1024.Idx) (k : dot_S2048x512_S1024x512_S2048x1024_1_1_0_0_n_n.contr.Idx) : (dot_S2048x512_S1024x512_S2048x1024_1_1_0_0_n_n.lhsIdx j k 1).val = (k ⟨0, by decide⟩).val :=
  dot_S2048x512_S1024x512_S2048x1024_1_1_0_0_n_n.lhsIdx_val_of_single rfl j k
/-- the right operand at the output's column, -/
theorem rhs_row (j : S2048x1024.Idx) (k : dot_S2048x512_S1024x512_S2048x1024_1_1_0_0_n_n.contr.Idx) : (dot_S2048x512_S1024x512_S2048x1024_1_1_0_0_n_n.rhsIdx j k 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
/-- and at the contracted position. -/
theorem rhs_col (j : S2048x1024.Idx) (k : dot_S2048x512_S1024x512_S2048x1024_1_1_0_0_n_n.contr.Idx) : (dot_S2048x512_S1024x512_S2048x1024_1_1_0_0_n_n.rhsIdx j k 1).val = (k ⟨0, by decide⟩).val :=
  dot_S2048x512_S1024x512_S2048x1024_1_1_0_0_n_n.rhsIdx_val_of_single rfl j k

/-- The product of the two blocks at (p, q): the sum over the 512 contracted positions. -/
theorem pay1_apply (x : FVec Ideal S2048x512 .bf16) (w : FVec Ideal S1024x512 .bf16) (p : Fin 2048) (q : Fin 1024) :
    k0_pay1 (F := Ideal) x w (ix2 p q) = ∑ l : Fin 512, x (ix2 p l) * w (ix2 q l) := by
  unfold k0_pay1
  simp only [shapeCast_self, matmul]
  rw [Ideal.matmul_constant_zero_apply, ← Equiv.sum_comp (contrEquiv1 dot_S2048x512_S1024x512_S2048x1024_1_1_0_0_n_n 512 rfl rfl).symm]
  refine Finset.sum_congr rfl fun l _ => ?_
  have hl := contrEquiv1_symm_val dot_S2048x512_S1024x512_S2048x1024_1_1_0_0_n_n 512 rfl rfl l
  have el : dot_S2048x512_S1024x512_S2048x1024_1_1_0_0_n_n.lhsIdx (ix2 p q) ((contrEquiv1 dot_S2048x512_S1024x512_S2048x1024_1_1_0_0_n_n 512 rfl rfl).symm l) = ix2 p l := funext fun a => Fin.ext (by
    match a with
    | ⟨0, _⟩ => exact lhs_row _ _
    | ⟨1, _⟩ => exact (lhs_col _ _).trans hl)
  have er : dot_S2048x512_S1024x512_S2048x1024_1_1_0_0_n_n.rhsIdx (ix2 p q) ((contrEquiv1 dot_S2048x512_S1024x512_S2048x1024_1_1_0_0_n_n 512 rfl rfl).symm l) = ix2 q l := funext fun a => Fin.ext (by
    match a with
    | ⟨0, _⟩ => exact rhs_row _ _
    | ⟨1, _⟩ => exact (rhs_col _ _).trans hl)
  rw [el, er]

/-- The accumulating store's value at (p, q): what the block held plus the product. -/
theorem pay2_apply (x : FVec Ideal S2048x512 .bf16) (w : FVec Ideal S1024x512 .bf16) (acc : FVec Ideal S2048x1024 .f32)
    (p : Fin 2048) (q : Fin 1024) :
    k0_pay2 (F := Ideal) x w acc (ix2 p q) = acc (ix2 p q) + ∑ l : Fin 512, x (ix2 p l) * w (ix2 q l) := by
  unfold k0_pay2
  simp only [shapeCast_self]
  rw [addf_apply, pay1_apply]

/-- The last store's value at (p, q): what the block held plus the bias row's entry q. -/
theorem pay3_apply (acc : FVec Ideal S2048x1024 .f32) (b : FVec Ideal S1x1024 .f32) (p : Fin 2048) (q : Fin 1024) :
    k0_pay3 (F := Ideal) acc b (ix2 p q) = acc (ix2 p q) + b (ix2 (0 : Fin 1) q) := by
  unfold k0_pay3
  simp only [shapeCast_self]
  rw [addf_apply, broadcastTo_1b_ab_apply]

end Cert.SignProduct.Payload

end
-- ==== Proof.Value.Blocks.lean ====
/-
  The input blocks at a grid point, read at an entry, at the ideal values.

  Point t of the grid (4, 4, 8) has coordinates i = t / 32, j = (t / 8) mod 4, k = t mod 8. The x window's block
  there is rows 2048 i … and columns 512 k … of the array the launch finds, which is sign(x) entry by entry (the
  change to the shorter float format is the identity on ideal values); the w window's block is rows 1024 j … and
  columns 512 k … of sign(w); the bias window's block is columns 1024 j … of the one row b reshaped to [1, 4096].
  A block's coordinate is the block index times the block size plus the coordinate inside the block.
-/
import proofs.«174358_j46926812676154_2_alg».proof.Proof.Gen.KernelIdeal.Frame
import proofs.«174358_j46926812676154_2_alg».proof.Proof.Value.Spec
import Idealize.ShloMosaic.Lib.Pipeline.Value
import Idealize.ShloMosaic.Lib.ValueIdx
import Idealize.ShloMosaic.Lib.StableHlo.Run

set_option maxRecDepth 16384

noncomputable section

namespace Cert.SignProduct.Kernel

open Cert.KernelIdeal Cert.KernelIdeal.Gen Idealize.ShloMosaic Idealize.ShloMosaic.TcCoe Idealize.SL.Sem
open Idealize.ShloMosaic.ValueIdx Cert.SignProduct

variable (m : (ℓ : Loc nD τ sig) → Buf (Elt Ideal) ℓ)

/-- The three argument arrays on core c. -/
abbrev X (c : Dev nD) : SX.Idx → EReal := m ((c : Thread nD τ).loc main_arg0)
abbrev W (c : Dev nD) : SW.Idx → EReal := m ((c : Thread nD τ).loc main_arg1)
abbrev B (c : Dev nD) : SB.Idx → EReal := m ((c : Thread nD τ).loc main_arg2)

/-- Row p of the output block of point t, as a row of the whole array; -/
def rowAt (t : ℕ) (p : Fin 2048) : Fin 8192 := ⟨2048 * (t / 32 % 4) + p.val, by have := p.isLt; omega⟩
/-- column q of that block, as a column of the whole array; -/
def colAt (t : ℕ) (q : Fin 1024) : Fin 4096 := ⟨1024 * (t / 8 % 4) + q.val, by have := q.isLt; omega⟩
/-- position l of point t's run of the contracted axis, as a position of the whole axis. -/
def runAt (t : ℕ) (l : Fin 512) : Fin 4096 := ⟨512 * (t % 8) + l.val, by have := l.isLt; omega⟩

/-- The windows' block indices at every point, decided over the grid. -/
theorem idx_facts : ∀ t : Fin cfg0.N,
    win0_0.index t (0 : Fin 2) = t.val / 32 % 4 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 % 4 ∧ win0_3.index t (1 : Fin 2) = t.val / 8 % 4 :=
  (by decide +kernel : ∀ t : Fin grid0.N, _)

/-- The x window's array as the launch finds it: the signs of x. -/
theorem V_signx (c : Dev nD) :
    (V m c main_v1 : S8192x4096.Idx → EReal) = fun i => Ideal.sign (X m c i) := by
  dsimp only [V, hostOps0]; after_results; rfl

/-- The w window's array as the launch finds it: the signs of w. -/
theorem V_signw (c : Dev nD) :
    (V m c main_v3 : S4096x4096.Idx → EReal) = fun i => Ideal.sign (W m c i) := by
  dsimp only [V, hostOps0]; after_results; rfl

/-- The bias window's array as the launch finds it: b as one row. -/
theorem V_bias (c : Dev nD) :
    (V m c main_v4 : S1x4096.Idx → EReal) = shapeCast S1x4096 (B m c) shapeCasts_S4096_S1x4096 := by
  dsimp only [V, hostOps0]; after_results; rfl

/-- The x block of point t at (p, l). -/
theorem xblk_apply (c : Dev nD) (t : Fin cfg0.N) (p : Fin 2048) (l : Fin 512) :
    (iblk m c 0 t : S2048x512.Idx → EReal) (ix2 p l) = Ideal.sign (X m c (ix2 (rowAt t.val p) (runAt t.val l))) := by
  obtain ⟨e0, e1, -⟩ := idx_facts t
  unfold iblk
  rw [View.read_apply]
  refine (congrFun (V_signx m c) _).trans (congrArg (fun i => Ideal.sign (X m c i)) (funext fun a => Fin.ext ?_))
  match a with
  | ⟨0, _⟩ => show win0_0.index t (0 : Fin 2) * 2048 + 1 * p.val = 2048 * (t.val / 32 % 4) + p.val; rw [e0]; omega
  | ⟨1, _⟩ => show win0_0.index t (1 : Fin 2) * 512 + 1 * l.val = 512 * (t.val % 8) + l.val; rw [e1]; omega

/-- The w block of point t at (q, l). -/
theorem wblk_apply (c : Dev nD) (t : Fin cfg0.N) (q : Fin 1024) (l : Fin 512) :
    (iblk m c 1 t : S1024x512.Idx → EReal) (ix2 q l) = Ideal.sign (W m c (ix2 (colAt t.val q) (runAt t.val l))) := by
  obtain ⟨-, -, e2, e3, -⟩ := idx_facts t
  unfold iblk
  rw [View.read_apply]
  refine (congrFun (V_signw m c) _).trans (congrArg (fun i => Ideal.sign (W m c i)) (funext fun a => Fin.ext ?_))
  match a with
  | ⟨0, _⟩ => show win0_1.index t (0 : Fin 2) * 1024 + 1 * q.val = 1024 * (t.val / 8 % 4) + q.val; rw [e2]; omega
  | ⟨1, _⟩ => show win0_1.index t (1 : Fin 2) * 512 + 1 * l.val = 512 * (t.val % 8) + l.val; rw [e3]; omega

/-- The bias block of point t at (0, q). -/
theorem bblk_apply (c : Dev nD) (t : Fin cfg0.N) (q : Fin 1024) :
    (iblk m c 2 t : S1x1024.Idx → EReal) (ix2 (0 : Fin 1) q) = B m c (ix1 (colAt t.val q)) := by
  obtain ⟨-, -, -, -, e4, e5, -⟩ := idx_facts t
  unfold iblk
  rw [View.read_apply]
  refine (congrFun (V_bias m c) _).trans ?_
  refine shapeCast_apply _ _ _ _ ?_
  rw [Shape.rowMajor_val_one, Shape.rowMajor_val_two]
  show 1024 * (t.val / 8 % 4) + q.val = (win0_2.index t (0 : Fin 2) * 1 + 1 * 0) * 4096 + (win0_2.index t (1 : Fin 2) * 1024 + 1 * q.val)
  rw [e4, e5]; omega

end Cert.SignProduct.Kernel

end
-- ==== Proof.Value.Running.lean ====
/-
  The output block after each grid point, as a function of the argument arrays.

  After point n, whose coordinates are i = n / 32, j = (n / 8) mod 4, k = n mod 8, the entry (p, q) of the
  output block holds the sum of the first 512 (k + 1) columns' sign products for row 2048 i + p of x and row
  1024 j + q of w, and, once k = 7, also the bias entry 1024 j + q. At k = 0 the body stores the first run's
  sum; at k > 0 the point before has the same i and j and one run fewer, and the body adds the next run; at
  k = 7 it then adds the bias entry. The proof is an induction on the point.
-/
import proofs.«174358_j46926812676154_2_alg».proof.Proof.Ideal.Frame
import proofs.«174358_j46926812676154_2_alg».proof.Proof.Ideal.Pieces
import proofs.«174358_j46926812676154_2_alg».proof.Proof.Value.Payload
import proofs.«174358_j46926812676154_2_alg».proof.Proof.Value.Blocks

set_option maxRecDepth 16384

noncomputable section

namespace Cert.SignProduct.Kernel

open Cert.KernelIdeal Cert.KernelIdeal.Gen Cert.KernelIdeal.Body Idealize.ShloMosaic Idealize.ShloMosaic.TcCoe Idealize.SL.Sem
open Idealize.ShloMosaic.ValueIdx Cert.SignProduct

variable (m : (ℓ : Loc nD τ sig) → Buf (Elt Ideal) ℓ)

/-- Two blocks that hold the signs of point t's runs of row (2048 i + p) of x and row (1024 j + q) of w have, as
    their product at (p, q), point t's run of the sum. -/
theorem block_sum (c : Dev nD) (t : Fin cfg0.N) (p : Fin 2048) (q : Fin 1024)
    (x : FVec Ideal S2048x512 .bf16) (w : FVec Ideal S1024x512 .bf16)
    (hx : ∀ l : Fin 512, x (ix2 p l) = Ideal.sign (X m c (ix2 (rowAt t.val p) (runAt t.val l))))
    (hw : ∀ l : Fin 512, w (ix2 q l) = Ideal.sign (W m c (ix2 (colAt t.val q) (runAt t.val l)))) :
    ∑ l : Fin 512, x (ix2 p l) * w (ix2 q l)
      = ∑ l ∈ Finset.range 512, term (X m c) (W m c) (rowAt t.val p) (colAt t.val q) (512 * (t.val % 8) + l) :=
  run_sum (X m c) (W m c) (rowAt t.val p) (colAt t.val q) (t.val % 8) (Nat.mod_lt _ (by decide)) _ (fun l => by
    rw [hx l, hw l]; rfl)

/-- The body's result at a point with k = 0, at (p, q). -/
theorem atFirst_apply (c : Dev nD) (t : Fin cfg0.N) (h0 : t.val % 8 = 0) (p : Fin 2048) (q : Fin 1024) :
    (atFirst m c t h0 : S2048x1024.Idx → EReal) (ix2 p q)
      = ∑ l ∈ Finset.range 512, term (X m c) (W m c) (rowAt t.val p) (colAt t.val q) (512 * (t.val % 8) + l) := by
  unfold atFirst
  refine (congrFun (outFirst_eq c (grid0.coords t) (xs t) (xs_whole t) (ws t) (ws_whole t) (bs t) (bs_whole t) (os t) (os_whole t) ((overwrite_iff t).mpr h0) (first_g2 t h0) (first_g3 t h0) (iblk m c 0 t) (iblk m c 1 t) (iblk m c 2 t)) (ix2 p q)).trans ?_
  exact (Payload.pay1_apply (iblk m c 0 t) (iblk m c 1 t) p q).trans (block_sum m c t p q (iblk m c 0 t) (iblk m c 1 t) (xblk_apply m c t p) (wblk_apply m c t q))

/-- The body's result at a point with 0 < k < 7, at (p, q). -/
theorem atMiddle_apply (c : Dev nD) (t : Fin cfg0.N) (h0 : ¬ t.val % 8 = 0) (h7 : ¬ t.val % 8 = 7)
    (acc : FVec Ideal S2048x1024 .f32) (p : Fin 2048) (q : Fin 1024) :
    (atMiddle m c t h0 h7 acc : S2048x1024.Idx → EReal) (ix2 p q)
      = (acc (ix2 p q) : EReal)
        + ∑ l ∈ Finset.range 512, term (X m c) (W m c) (rowAt t.val p) (colAt t.val q) (512 * (t.val % 8) + l) := by
  unfold atMiddle
  refine (congrFun (outMiddle_eq c (grid0.coords t) (xs t) (xs_whole t) (ws t) (ws_whole t) (bs t) (bs_whole t) (os t) (os_whole t) (later_g1 t h0) ((accumulate_iff t).mpr h0) (mid_g3 t h7) (iblk m c 0 t) (iblk m c 1 t) (iblk m c 2 t) acc) (ix2 p q)).trans ?_
  refine (Payload.pay2_apply (iblk m c 0 t) (iblk m c 1 t) acc p q).trans ?_
  exact congrArg (fun z : EReal => (acc (ix2 p q) : EReal) + z) (block_sum m c t p q (iblk m c 0 t) (iblk m c 1 t) (xblk_apply m c t p) (wblk_apply m c t q))

/-- The body's result at a point with k = 7, at (p, q). -/
theorem atLast_apply (c : Dev nD) (t : Fin cfg0.N) (h7 : t.val % 8 = 7)
    (acc : FVec Ideal S2048x1024 .f32) (p : Fin 2048) (q : Fin 1024) :
    (atLast m c t h7 acc : S2048x1024.Idx → EReal) (ix2 p q)
      = ((acc (ix2 p q) : EReal)
          + ∑ l ∈ Finset.range 512, term (X m c) (W m c) (rowAt t.val p) (colAt t.val q) (512 * (t.val % 8) + l))
        + B m c (ix1 (colAt t.val q)) := by
  unfold atLast
  refine (congrFun (outLast_eq c (grid0.coords t) (xs t) (xs_whole t) (ws t) (ws_whole t) (bs t) (bs_whole t) (os t) (os_whole t) (later_g1 t (last_ne t h7)) ((accumulate_iff t).mpr (last_ne t h7)) ((bias_iff t).mpr h7) (iblk m c 0 t) (iblk m c 1 t) (iblk m c 2 t) acc) (ix2 p q)).trans ?_
  refine (Payload.pay3_apply (k0_pay2 (F := Ideal) (iblk m c 0 t) (iblk m c 1 t) acc) (iblk m c 2 t) p q).trans ?_
  rw [Payload.pay2_apply (iblk m c 0 t) (iblk m c 1 t) acc p q, block_sum m c t p q (iblk m c 0 t) (iblk m c 1 t) (xblk_apply m c t p) (wblk_apply m c t q), bblk_apply m c t q]

/-- What entry (p, q) of the output block holds after point n. -/
def running (c : Dev nD) (n : ℕ) (p : Fin 2048) (q : Fin 1024) : EReal :=
  partialSum (X m c) (W m c) (rowAt n p) (colAt n q) (512 * (n % 8 + 1))
    + (if n % 8 = 7 then B m c (ix1 (colAt n q)) else 0)

/-- At k = 0: the first run's sum. -/
theorem running_first (c : Dev nD) (n : ℕ) (p : Fin 2048) (q : Fin 1024) (h0 : n % 8 = 0) :
    running m c n p q = ∑ l ∈ Finset.range 512, term (X m c) (W m c) (rowAt n p) (colAt n q) (512 * (n % 8) + l) := by
  unfold running
  rw [h0, partialSum_step, partialSum_zero, zero_add, if_neg (by decide), add_zero]

/-- The point before a point with k ≠ 0 has the same block row and block column. -/
theorem rowAt_succ (n : ℕ) (p : Fin 2048) (h0 : ¬ (n + 1) % 8 = 0) : rowAt (n + 1) p = rowAt n p :=
  Fin.ext (by unfold rowAt; dsimp only; omega)
theorem colAt_succ (n : ℕ) (q : Fin 1024) (h0 : ¬ (n + 1) % 8 = 0) : colAt (n + 1) q = colAt n q :=
  Fin.ext (by unfold colAt; dsimp only; omega)

/-- At 0 < k < 7: what the point before left, plus the next run's sum. -/
theorem running_middle (c : Dev nD) (n : ℕ) (p : Fin 2048) (q : Fin 1024) (h0 : ¬ (n + 1) % 8 = 0) (h7 : ¬ (n + 1) % 8 = 7) :
    running m c (n + 1) p q
      = running m c n p q
        + ∑ l ∈ Finset.range 512, term (X m c) (W m c) (rowAt (n + 1) p) (colAt (n + 1) q) (512 * ((n + 1) % 8) + l) := by
  have e : (n + 1) % 8 = n % 8 + 1 := by omega
  unfold running
  rw [rowAt_succ n p h0, colAt_succ n q h0, e, partialSum_step, if_neg (by omega), if_neg (by omega), add_zero, add_zero]

/-- At k = 7: what the point before left, plus the last run's sum, plus the bias entry. -/
theorem running_last (c : Dev nD) (n : ℕ) (p : Fin 2048) (q : Fin 1024) (h7 : (n + 1) % 8 = 7) :
    running m c (n + 1) p q
      = (running m c n p q
          + ∑ l ∈ Finset.range 512, term (X m c) (W m c) (rowAt (n + 1) p) (colAt (n + 1) q) (512 * ((n + 1) % 8) + l))
        + B m c (ix1 (colAt (n + 1) q)) := by
  have h0 : ¬ (n + 1) % 8 = 0 := by omega
  have e : (n + 1) % 8 = n % 8 + 1 := by omega
  unfold running
  rw [rowAt_succ n p h0, colAt_succ n q h0, e, partialSum_step, if_pos (by omega), if_neg (by omega), add_zero]

/-- After every point the output block holds the running value: by induction on the point. -/
theorem carried_eq (c : Dev nD) : ∀ (n : ℕ) (hn : n < cfg0.N) (p : Fin 2048) (q : Fin 1024),
    (carried m c n hn : S2048x1024.Idx → EReal) (ix2 p q) = running m c n p q := by
  intro n
  induction n with
  | zero =>
    intro hn p q
    refine (congrFun (carried_first m c ⟨0, hn⟩ (Nat.zero_mod 8)) (ix2 p q)).trans ?_
    refine (atFirst_apply m c ⟨0, hn⟩ (Nat.zero_mod 8) p q).trans ?_
    exact (running_first m c 0 p q (Nat.zero_mod 8)).symm
  | succ n ih =>
    intro hn p q
    by_cases h0 : (n + 1) % 8 = 0
    · refine (congrFun (carried_first m c ⟨n + 1, hn⟩ h0) (ix2 p q)).trans ?_
      refine (atFirst_apply m c ⟨n + 1, hn⟩ h0 p q).trans ?_
      exact (running_first m c (n + 1) p q h0).symm
    · by_cases h7 : (n + 1) % 8 = 7
      · refine (congrFun (carried_last m c ⟨n + 1, hn⟩ h7) (ix2 p q)).trans ?_
        refine (atLast_apply m c ⟨n + 1, hn⟩ h7 _ p q).trans ?_
        rw [running_last m c n p q h7]
        exact congrArg (fun z : EReal => (z + ∑ l ∈ Finset.range 512, term (X m c) (W m c) (rowAt (n + 1) p) (colAt (n + 1) q) (512 * ((n + 1) % 8) + l)) + B m c (ix1 (colAt (n + 1) q)))
          (ih (Nat.lt_of_succ_lt hn) p q)
      · refine (congrFun (carried_middle m c ⟨n + 1, hn⟩ h0 h7) (ix2 p q)).trans ?_
        refine (atMiddle_apply m c ⟨n + 1, hn⟩ h0 h7 _ p q).trans ?_
        rw [running_middle m c n p q h0 h7]
        exact congrArg (fun z : EReal => z + ∑ l ∈ Finset.range 512, term (X m c) (W m c) (rowAt (n + 1) p) (colAt (n + 1) q) (512 * ((n + 1) % 8) + l))
          (ih (Nat.lt_of_succ_lt hn) p q)

end Cert.SignProduct.Kernel

end
-- ==== Proof.Value.Final.lean ====
/-
  The result array after the launch is G of the argument arrays.

  The output block of point t is written back exactly when k = 7, and by then it holds, at (p, q), all 4096
  columns' sum for row 2048 i + p and column 1024 j + q plus the bias entry: G at that entry of the array. The
  sixteen blocks (i, j) tile the array [8192, 4096]: the entry (r, s) lies in the block of the point with
  i = r / 2048, j = s / 1024, k = 7. So every entry of the result array ends at G.
-/
import proofs.«174358_j46926812676154_2_alg».proof.Proof.Value.Running

set_option maxRecDepth 16384

noncomputable section

namespace Cert.SignProduct.Kernel

open Cert.KernelIdeal Cert.KernelIdeal.Gen Cert.KernelIdeal.Body Idealize.ShloMosaic Idealize.ShloMosaic.TcCoe Idealize.SL.Sem
open Idealize.ShloMosaic.ValueIdx Cert.SignProduct
open Idealize.ShloMosaic.Pipeline (Dat)

variable (m : (ℓ : Loc nD τ sig) → Buf (Elt Ideal) ℓ) (ρ : Dev nD → PrngReg)

/-- After a point with k = 7 the entry holds G's value there. -/
theorem running_done (c : Dev nD) (n : ℕ) (p : Fin 2048) (q : Fin 1024) (h7 : n % 8 = 7) :
    running m c n p q = G (X m c) (W m c) (B m c) (ix2 (rowAt n p) (colAt n q)) := by
  unfold running
  rw [G_apply, h7, if_pos rfl]

/-- Entry (p, q) of point t's output block is entry (2048 i + p, 1024 j + q) of the array. -/
theorem out_emb (t : Fin cfg0.N) (p : Fin 2048) (q : Fin 1024) :
    ((cfg0.win 3).blk t).view.emb (ix2 p q) = ix2 (rowAt t.val p) (colAt t.val q) := by
  obtain ⟨-, -, -, -, -, -, e6, e7⟩ := idx_facts t
  funext a; apply Fin.ext
  match a with
  | ⟨0, _⟩ => show win0_3.index t (0 : Fin 2) * 2048 + 1 * p.val = 2048 * (t.val / 32 % 4) + p.val; rw [e6]; omega
  | ⟨1, _⟩ => show win0_3.index t (1 : Fin 2) * 1024 + 1 * q.val = 1024 * (t.val / 8 % 4) + q.val; rw [e7]; omega

/-- What a point with k = 7 writes back is its block of G. -/
theorem flushed_eq (c : Dev nD) (t : Fin cfg0.N) (hf : (cfg0.win 3).flush t = true) :
    (dats m 0 c).flushed 3 t = ((cfg0.win 3).blk t).view.read (Elt Ideal) (G (X m c) (W m c) (B m c)) := by
  have h7 : t.val % 8 = 7 := (flush0_3 t).mp hf
  show (cfg0.win 3).cut (grid0.coords t) ((dats m 0 c).after 3 t) = _
  rw [after_o]
  funext y
  obtain ⟨p, q, rfl⟩ : ∃ (p : Fin 2048) (q : Fin 1024), y = ix2 p q := ⟨y 0, y 1, eq_ix2 y⟩
  rw [View.read_apply, out_emb]
  show (carried m c t.val t.isLt : S2048x1024.Idx → EReal) (ix2 p q) = _
  rw [carried_eq, running_done m c t.val p q h7]
  rfl

/-- An entry of the array is in point t's output block iff each coordinate is in the block's range. -/
theorem mem_out_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v5).slice (win0_3.rect t)).set ↔ _
  rw [View.set_slice_whole, Rect.mem_set_unit]
  exact Iff.rfl

/-- Every entry of the array lies in the block some point with k = 7 writes back. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  obtain ⟨t, ht⟩ : ∃ t : Fin cfg0.N, t.val = 32 * ((i 0).val / 2048) + 8 * ((i 1).val / 1024) + 7 :=
    ⟨⟨32 * ((i 0).val / 2048) + 8 * ((i 1).val / 1024) + 7, by rw [hN]; omega⟩, rfl⟩
  obtain ⟨-, -, -, -, -, -, e6, e7⟩ := idx_facts t
  refine ⟨t, (flush0_3 t).mpr (by omega), ?_⟩
  rw [mem_out_blk]
  intro a
  match a with
  | ⟨0, _⟩ =>
    show win0_3.index t (0 : Fin 2) * 2048 ≤ (i 0).val ∧ (i 0).val < win0_3.index t (0 : Fin 2) * 2048 + 2048
    rw [e6]; omega
  | ⟨1, _⟩ =>
    show win0_3.index t (1 : Fin 2) * 1024 ≤ (i 1).val ∧ (i 1).val < win0_3.index t (1 : Fin 2) * 1024 + 1024
    rw [e7]; omega

/-- The result array after the launch. -/
theorem final (c : Dev nD) : (dats m 0 c).arrAt 3 cfg0.N = G (X m c) (W m c) (B m c) :=
  (dats m 0 c).arrAt_eq_of_cover 3 (G (X m c) (W m c) (B m c)) (flushed_eq m c) covered

/-- The run, read: the result array at G of the arguments, the arguments unchanged. -/
theorem run : θ_run defs (onTc (τ := τ) (main (F := Ideal))) ⟨m, fun _ => 0, ρ⟩ fun r => ∀ c : Dev nD,
      r.2.mem ((c.tc : Thread nD τ).loc main_v5) = G (X m c) (W m c) (B m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.SignProduct.Kernel

end
-- ==== Proof.lean ====
/-
  The certificate of the sign-quantized dense layer: out = sign(x) · sign(w)ᵀ + b over x [8192, 4096],
  w [4096, 4096], b [4096].

  The kernel walks a grid (4, 4, 8): for each output block (i, j) of 2048 × 1024 entries it visits the eight
  runs k of 512 columns of the contracted axis in order, overwriting the block with the first run's product,
  adding each later run's product, and adding the bias row after the last. The reference forms the whole
  product at once and adds the bias. At the ideal values both are, at (r, s), the sum over all 4096 columns of
  sign(x[r, kk]) · sign(w[s, kk]) plus b[s]: a sum taken in eight consecutive runs is the same sum, because
  addition of extended reals is associative and commutative; the entries need not be finite.

  Frames: each kernel program's body is run once per case of its three guards (k = 0, 0 < k < 7, k = 7), the
  output block's contents are carried from point to point, and the launch theorem gives termination, no fault,
  and the arguments unchanged; the reference's frame is its run with the result dropped. No operation
  of the kernel was rewritten in its idealization, which is the kernel's own text read at the ideal values.
-/
import proofs.«174358_j46926812676154_2_alg».proof.Defs
import proofs.«174358_j46926812676154_2_alg».proof.Proof.Gen.Kernel
import proofs.«174358_j46926812676154_2_alg».proof.Proof.Gen.KernelIdeal
import proofs.«174358_j46926812676154_2_alg».proof.Proof.Gen.ReferenceIdeal
import proofs.«174358_j46926812676154_2_alg».proof.Proof.Gen.ReferenceIdeal.Run
import proofs.«174358_j46926812676154_2_alg».proof.Proof.Gen.ReferenceIdeal.Read
import proofs.«174358_j46926812676154_2_alg».proof.Proof.Gen.Pre_finite_inputs
import proofs.«174358_j46926812676154_2_alg».proof.Proof.Bits.Frame
import proofs.«174358_j46926812676154_2_alg».proof.Proof.Ideal.Frame
import proofs.«174358_j46926812676154_2_alg».proof.Proof.Value.Reference
import proofs.«174358_j46926812676154_2_alg».proof.Proof.Value.Final
import Idealize.ShloMosaic.Adequacy
import Idealize.ShloMosaic.Init

noncomputable section

namespace Cert.Proof

open Idealize.ShloMosaic Idealize.ShloMosaic.TcCoe Idealize.SL.Sem Cert.SignProduct

theorem frame_kernel : Cert.frame_Kernel := fun m ρ _ => Cert.Kernel.Body.frame m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at G of the arguments, and the arguments agree. -/
theorem algebraic : Cert.algebraic_KernelIdeal_ReferenceIdeal := by
  intro m ρ m' ρ' _ hagree
  refine ⟨fun c => G (Kernel.X m c) (Kernel.W m c) (Kernel.B m c), Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Ref.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
